-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S1x1 : Shape := ⟨2, ![1, 1]⟩
abbrev S512x1 : Shape := ⟨2, ![512, 1]⟩
abbrev S512x64 : Shape := ⟨2, ![512, 64]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S1x1 : S_.BroadcastsInDim S1x1 (![] : Fin 0 → Fin S1x1.rank)
  reducesTo_S1x1_S_d0_1 : S1x1.ReducesTo [0, 1] S_
  bcast_S_S512x1 : S_.BroadcastsInDim S512x1 (![] : Fin 0 → Fin S512x1.rank)
  reducesTo_S512x1_S_d0_1 : S512x1.ReducesTo [0, 1] S_
  bcast_S_S512x64 : S_.BroadcastsInDim S512x64 (![] : Fin 0 → Fin S512x64.rank)
  reducesTo_S512x64_S_d0_1 : S512x64.ReducesTo [0, 1] S_

variable [Facts]

def fn_part1 {F : FTy → Type} [FloatOps F] (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  main_v18

def fn {F : FTy → Type} [FloatOps F] (main_arg0 : FVec F S262144x512 .f32) (main_arg1 : FVec F S1x1 .f32) (main_arg2 : FVec F S512x1 .f32) (main_arg3 : FVec F S512x64 .f32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_v4 : FVec F S1x1 .f32 := Host.absf main_arg1
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  let main_c_1 : IVec S_ 1 := constantI S_ 1 1#1
  let main_v7 : IVec S_ 1 := (fun x v => Host.reduce IntOp.andi x v reducesTo_S1x1_S_d0_1 h_S_) main_v6 main_c_1
  let main_v8 : IVec S_ 1 := andi main_v3 main_v7
  let main_v9 : FVec F S512x1 .f32 := Host.absf main_arg2
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_v13 main_v16
-- ==== Kernel.lean ====
abbrev S262144x512 : Shape := ⟨2, ![262144, 512]⟩
abbrev S1x1 : Shape := ⟨2, ![1, 1]⟩
abbrev S512x1 : Shape := ⟨2, ![512, 1]⟩
abbrev S512x64 : Shape := ⟨2, ![512, 64]⟩
abbrev S512x65 : Shape := ⟨2, ![512, 65]⟩
abbrev S_ : Shape := ⟨0, ![]⟩
abbrev S512x128 : Shape := ⟨2, ![512, 128]⟩
abbrev S262144x1 : Shape := ⟨2, ![262144, 1]⟩
abbrev S2048x512 : Shape := ⟨2, ![2048, 512]⟩
abbrev S2048x1 : Shape := ⟨2, ![2048, 1]⟩
abbrev S2048x128 : Shape := ⟨2, ![2048, 128]⟩
abbrev S2048x64 : Shape := ⟨2, ![2048, 64]⟩
abbrev S2048 : Shape := ⟨1, ![2048]⟩

abbrev nBuf : Space → Nat
  | .hbm => 13
  | .vmem => 7
  | .smem => 0
  | _ => 0

abbrev bufTy : (tb : Table) → Fin (tcTables nBuf tb) → BufTy
  | .hbm, ⟨0, _⟩ => ⟨S262144x512, .f32⟩
  | .hbm, ⟨1, _⟩ => ⟨S1x1, .f32⟩
  | .hbm, ⟨2, _⟩ => ⟨S512x1, .f32⟩
  | .hbm, ⟨3, _⟩ => ⟨S512x64, .f32⟩
  | .hbm, ⟨4, _⟩ => ⟨S512x64, .bf16⟩
  | .hbm, ⟨5, _⟩ => ⟨S512x1, .bf16⟩
  | .hbm, ⟨6, _⟩ => ⟨S512x64, .f32⟩
  | .hbm, ⟨7, _⟩ => ⟨S512x64, .bf16⟩
  | .hbm, ⟨8, _⟩ => ⟨S512x65, .bf16⟩
  | .hbm, ⟨9, _⟩ => ⟨S_, .i32⟩
  | .hbm, ⟨10, _⟩ => ⟨S_, .bf16⟩
  | .hbm, ⟨11, _⟩ => ⟨S512x128, .bf16⟩
  | .hbm, ⟨12, _⟩ => ⟨S262144x1, .f32⟩
  | .local _ .vmem, ⟨0, _⟩ => ⟨S2048x512, .f32⟩
  | .local _ .vmem, ⟨1, _⟩ => ⟨S2048x512, .f32⟩
  | .local _ .vmem, ⟨2, _⟩ => ⟨S512x128, .bf16⟩
  | .local _ .vmem, ⟨3, _⟩ => ⟨S512x64, .bf16⟩
  | .local _ .vmem, ⟨4, _⟩ => ⟨S1x1, .f32⟩
  | .local _ .vmem, ⟨5, _⟩ => ⟨S2048x1, .f32⟩
  | .local _ .vmem, ⟨6, _⟩ => ⟨S2048x1, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  concatenates_S512x64_S512x1_S512x65_d1 : Shape.Concatenates [S512x64, S512x1] S512x65 1
  pads_S512x65_S512x128_000_0630 : S512x65.Pads (![0, 0] : Fin 2 → Nat) ![0, 63] ![0, 0] S512x128
  h_S_ : 0 < S_.numel
  inb_S2048x512_S2048x512_0_0 : ∀ a, (![0, 0] : Fin 2 → Nat) a + S2048x512.size a ≤ S2048x512.size a
  h_S2048x512 : 0 < S2048x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x1_S1x1_0_0 : ∀ a, (![0, 0] : Fin 2 → Nat) a + S1x1.size a ≤ S1x1.size a
  h_S1x1 : 0 < S1x1.numel
  slices_S2048x128_o0_0_S2048x64 : S2048x128.Slices ![0, 0] S2048x64
  slices_S2048x128_o0_64_S2048x1 : S2048x128.Slices ![0, 64] S2048x1
  reduces_S2048x64_S2048 : S2048x64.Reduces [1] S2048
  shapeCasts_S2048_S2048x1 : S2048.ShapeCasts S2048x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S2048x512_S512x128_S2048x128_1_0_0_1_n_n_wf : DotDims.WF S2048x512 S512x128 S2048x128 [1] [0] [0] [1] [] []
  dot_S2048x512_S512x64_S2048x64_1_0_0_1_n_n_wf : DotDims.WF S2048x512 S512x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S262144x512.size a
  hwx0_0 : ∀ i : grid0.Coords, EltTy.bits .f32 = 32 ∨ (Rect.block (s := S262144x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .bf16 = 32 ∨ (Rect.block (s := S512x64) S512x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S262144x1.size a
  hwx0_4 : ∀ i : grid0.Coords, EltTy.bits .f32 = 32 ∨ (Rect.block (s := S262144x1) S2048x1.size (cc0_transform_4 i) (hinb0_4 i)).WholeWords (EltTy.packing .f32)

variable [Facts₀]

def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x512 : Shape := ⟨2, ![262144, 512]⟩
abbrev S1x1 : Shape := ⟨2, ![1, 1]⟩
abbrev S512x1 : Shape := ⟨2, ![512, 1]⟩
abbrev S512x64 : Shape := ⟨2, ![512, 64]⟩
abbrev S262144x64 : Shape := ⟨2, ![262144, 64]⟩
abbrev S_ : Shape := ⟨0, ![]⟩
abbrev S262144 : Shape := ⟨1, ![262144]⟩
abbrev S262144x1 : Shape := ⟨2, ![262144, 1]⟩

abbrev nBuf : Space → Nat
  | .hbm => 28
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S1x1, .f32⟩
  | .hbm, ⟨2, _⟩ => ⟨S512x1, .f32⟩
  | .hbm, ⟨3, _⟩ => ⟨S512x64, .f32⟩
  | .hbm, ⟨4, _⟩ => ⟨S262144x64, .f32⟩
  | .hbm, ⟨5, _⟩ => ⟨S262144x512, .f32⟩
  | .hbm, ⟨6, _⟩ => ⟨S512x64, .f32⟩
  | .hbm, ⟨7, _⟩ => ⟨S262144x64, .f32⟩
  | .hbm, ⟨8, _⟩ => ⟨S262144x64, .f32⟩
  | .hbm, ⟨9, _⟩ => ⟨S262144x64, .f32⟩
  | .hbm, ⟨10, _⟩ => ⟨S_, .f32⟩
  | .hbm, ⟨11, _⟩ => ⟨S262144, .f32⟩
  | .hbm, ⟨12, _⟩ => ⟨S262144x1, .f32⟩
  | .hbm, ⟨13, _⟩ => ⟨S_, .f32⟩
  | .hbm, ⟨14, _⟩ => ⟨S262144x1, .f32⟩
  | .hbm, ⟨15, _⟩ => ⟨S262144x1, .f32⟩
  | .hbm, ⟨16, _⟩ => ⟨S262144x1, .f32⟩
  | .hbm, ⟨17, _⟩ => ⟨S262144x1, .f32⟩
  | .hbm, ⟨18, _⟩ => ⟨S262144x1, .f32⟩
  | .hbm, ⟨19, _⟩ => ⟨S262144x1, .f32⟩
  | .hbm, ⟨20, _⟩ => ⟨S262144x1, .f32⟩
  | .hbm, ⟨21, _⟩ => ⟨S262144x1, .f32⟩
  | .hbm, ⟨22, _⟩ => ⟨S_, .f32⟩
  | .hbm, ⟨23, _⟩ => ⟨S262144x1, .f32⟩
  | .hbm, ⟨24, _⟩ => ⟨S262144x1, .f32⟩
  | .hbm, ⟨25, _⟩ => ⟨S_, .f32⟩
  | .hbm, ⟨26, _⟩ => ⟨S262144x1, .f32⟩
  | .hbm, ⟨27, _⟩ => ⟨S262144x1, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S262144x64_S262144_d1 : S262144x64.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S1x1_S262144x1_0_1 : S1x1.BroadcastsInDim S262144x1 (![0, 1] : Fin 2 → Fin S262144x1.rank)
  dot_S262144x512_S512x64_S262144x64_1_0_0_1_n_n_wf : DotDims.WF S262144x512 S512x64 S262144x64 [1] [0] [0] [1] [] []
  dot_S262144x512_S512x1_S262144x1_1_0_0_1_n_n_wf : DotDims.WF S262144x512 S512x1 S262144x1 [1] [0] [0] [1] [] []

variable [Facts₀]

def dot_S262144x512_S512x64_S262144x64_1_0_0_1_n_n : DotDims S262144x512 S512x64 S262144x64 where
  lhsContracting := [1]
  rhsContracting := [0]
  lhsNonContracting := [0]
  rhsNonContracting := [1]
  lhsBatch := []
  rhsBatch := []
  wf := dot_S262144x512_S512x64_S262144x64_1_0_0_1_n_n_wf
def dot_S262144x512_S512x1_S262144x1_1_0_0_1_n_n : DotDims S262144x512 S512x1 S262144x1 where
  lhsContracting := [1]
  rhsContracting := [0]
  lhsNonContracting := [0]
  rhsNonContracting := [1]
  lhsBatch := []
  rhsBatch := []
  wf := dot_S262144x512_S512x1_S262144x1_1_0_0_1_n_n_wf

class Facts : Prop extends Facts₀ where

variable [Facts]
-- ==== Proof.Spec.lean ====
/-
  The function both programs compute, stated once over plain index types.

  A second-order factorization machine scores a row `x ∈ ℝ^512` with a bias `b`, linear weights `w ∈ ℝ^512` and
  factor matrix `V ∈ ℝ^{512×64}`:

      a(x) = ⟨x, w⟩ + b + ½ · Σ_j ( (Σ_k x_k V_kj)² − Σ_k x_k² V_kj² ),      out(x) = σ(a(x)) = 1 / (1 + e^(−a)).

  The inner difference is the usual rewriting of the pairwise interaction Σ_{k<k'} ⟨V_k, V_k'⟩ x_k x_k'; neither program
  expands it, so no law of the extended reals beyond the shape of this expression is needed, and the statement holds
  for every extended-real input, finite or not.
-/
import Idealize.ShloMosaic.PureOps.Ideal
import Idealize.ShloMosaic.PureOps.Ideal.Laws
import Idealize.ShloMosaic.Lib.ValueIdx

noncomputable section

namespace Cert.FM

open Idealize.ShloMosaic Idealize.ShloMosaic.ValueIdx

/-- The binary32 pattern `0x3F800000` is the real number one. -/
theorem ofBits_one : Ideal.ofBits .f32 0x3F800000#32 = 1 := by
  simp [Ideal.ofBits, Ideal.ieee, -EReal.coe_mul]; norm_num

/-- One row's score: `σ(⟨x, w⟩ + b + ½ Σ_j ((Σ_k x_k V_kj)² − Σ_k x_k² W_kj))`, with the squared factor matrix `W` a
    separate argument (the two programs square `V` at different places). The half is kept as its binary32 pattern: the
    same word on both sides is never evaluated. -/
def rowVal (x : Fin 512 → EReal) (b : EReal) (w : Fin 512 → EReal) (V W : Fin 512 → Fin 64 → EReal) : EReal :=
  Ideal.logistic (((∑ k : Fin 512, x k * w k) + b)
    + Ideal.ofBits .f32 0x3F000000#32
      * ∑ j : Fin 64, ((∑ k : Fin 512, x k * V k j) * (∑ k : Fin 512, x k * V k j) - ∑ k : Fin 512, (x k * x k) * W k j))

/-- The score depends on its arguments only through their entries. -/
theorem rowVal_congr {x x' : Fin 512 → EReal} {b b' : EReal} {w w' : Fin 512 → EReal} {V V' W W' : Fin 512 → Fin 64 → EReal}
    (hx : ∀ k, x k = x' k) (hb : b = b') (hw : ∀ k, w k = w' k) (hV : ∀ k j, V k j = V' k j)
    (hW : ∀ k j, W k j = W' k j) : rowVal x b w V W = rowVal x' b' w' V' W' := by
  obtain rfl : x = x' := funext hx
  obtain rfl : w = w' := funext hw
  obtain rfl : V = V' := funext fun k => funext (hV k)
  obtain rfl : W = W' := funext fun k => funext (hW k)
  rw [hb]

/-- The whole result: row `r` of the output column is the score of row `r` of `x`. -/
def G (x : (⟨2, ![262144, 512]⟩ : Shape).Idx → EReal) (b : (⟨2, ![1, 1]⟩ : Shape).Idx → EReal)
    (w : (⟨2, ![512, 1]⟩ : Shape).Idx → EReal) (V : (⟨2, ![512, 64]⟩ : Shape).Idx → EReal) :
    (⟨2, ![262144, 1]⟩ : Shape).Idx → EReal :=
  fun i => rowVal (fun k => x (ix2 (n0 := 262144) (i 0) k)) (b (ix2 (n0 := 1) (n1 := 1) 0 0))
    (fun k => w (ix2 (n1 := 1) k 0)) (fun k j => V (ix2 k j)) (fun k j => V (ix2 k j) * V (ix2 k j))

end Cert.FM

end
-- ==== Proof.RefIsSpec.lean ====
/-
  The reference program's result, read index by index, is the factorization-machine score `FM.G`.

  The reference spells the sigmoid as `1 / (1 + exp (−a))`; on the extended reals that expression IS the logistic
  function (with `σ(−∞) = 0`, `σ(+∞) = 1` by the conventions of division and `exp`), once the pattern of the
  literal `1.0` is read as the number one. Its matrix products are sums over the 512 features, its row sum a sum over
  the 64 factors started from the literal zero.
-/
import proofs.«142795_j13065290514484_2_alg».proof.Proof.Gen.ReferenceIdeal.Read
import proofs.«142795_j13065290514484_2_alg».proof.Proof.Spec

noncomputable section

namespace Cert.ReferenceIdeal.RefValue

open Cert.ReferenceIdeal Cert.ReferenceIdeal.Read Idealize.ShloMosaic Idealize.ShloMosaic.ValueIdx

/-- The reference's last stage is `FM.G` of the four arguments. -/
theorem result_eq (x0 : (⟨S262144x512, .f32⟩ : BufTy).Contents (Elt Ideal)) (x1 : (⟨S1x1, .f32⟩ : BufTy).Contents (Elt Ideal))
    (x2 : (⟨S512x1, .f32⟩ : BufTy).Contents (Elt Ideal)) (x3 : (⟨S512x64, .f32⟩ : BufTy).Contents (Elt Ideal)) :
    val_main_v19 (F := Ideal) x0 x1 x2 x3 = Cert.FM.G x0 x1 x2 x3 := by
  funext i
  rw [val_main_v19_apply, val_main_v18_apply, val_main_cst_2_apply, val_main_v17_apply, val_main_v16_apply,
    val_main_cst_1_apply, val_main_v15_apply, val_main_v14_apply, val_main_v13_apply, val_main_v12_apply,
    val_main_v10_apply, val_main_v11_apply, val_main_v9_apply, val_main_v8_apply, val_main_cst_0_apply,
    val_main_v7_apply, val_main_v6_apply, val_main_cst_apply]
  simp only [val_main_v5_apply, val_main_v4_apply, val_main_v0_apply, val_main_v3_apply, val_main_v1_apply,
    val_main_v2_apply]
  have h1 : (i 1).val < 1 := (i 1).isLt
  -- the operand indices of the three products and of the row sum, as coordinates
  have e10l : ∀ k : Fin 512, lidx_main_v10 i k = ix2 (n0 := 262144) (i 0) k := fun k => funext fun a => by
    match a with | ⟨0, _⟩ => rfl | ⟨1, _⟩ => rfl
  have e10r : ∀ k : Fin 512, ridx_main_v10 i k = ix2 (n1 := 1) k 0 := fun k => funext fun a => by
    match a with | ⟨0, _⟩ => rfl | ⟨1, _⟩ => exact Fin.ext (by show (i 1).val = 0; omega)
  have e11 : idx_main_v11 i = ix2 (n0 := 1) (n1 := 1) 0 0 := funext fun a => by
    match a with | ⟨0, _⟩ => rfl | ⟨1, _⟩ => rfl
  have e0l : ∀ (j : Fin 64) (k : Fin 512), lidx_main_v0 (idx_main_v6 (idx_main_v7 i) j) k = ix2 (n0 := 262144) (i 0) k :=
    fun j k => funext fun a => by match a with | ⟨0, _⟩ => rfl | ⟨1, _⟩ => rfl
  have e0r : ∀ (j : Fin 64) (k : Fin 512), ridx_main_v0 (idx_main_v6 (idx_main_v7 i) j) k = ix2 k j :=
    fun j k => funext fun a => by match a with | ⟨0, _⟩ => rfl | ⟨1, _⟩ => rfl
  have e3l : ∀ (j : Fin 64) (k : Fin 512), lidx_main_v3 (idx_main_v6 (idx_main_v7 i) j) k = ix2 (n0 := 262144) (i 0) k :=
    fun j k => funext fun a => by match a with | ⟨0, _⟩ => rfl | ⟨1, _⟩ => rfl
  have e3r : ∀ (j : Fin 64) (k : Fin 512), ridx_main_v3 (idx_main_v6 (idx_main_v7 i) j) k = ix2 k j :=
    fun j k => funext fun a => by match a with | ⟨0, _⟩ => rfl | ⟨1, _⟩ => rfl
  simp only [e10l, e10r, e11, e0l, e0r, e3l, e3r, Cert.FM.G, Cert.FM.rowVal, Ideal.hostDivf_def, Ideal.addf_def,
    Ideal.subf_def, Ideal.mulf_def, Ideal.hostUnary_exp_def, Ideal.hostNegf_def, Ideal.negf_def, Ideal.ofBits_def,
    Cert.FM.ofBits_one, Ideal.ofBits_zero_f32, zero_add, Ideal.logistic]

end Cert.ReferenceIdeal.RefValue

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LibColumns.lean ====
/-
  Column-wise layout operations on matrices, read at an index written by coordinates.

  A block of columns cut from a matrix; a single entry `[1, 1]` repeated down a column `[a, 1]`; two matrices with the
  same rows set side by side, read in the left piece and in the right piece; and a matrix widened by padding columns on
  the right, read inside the original columns. Each holds for any element type and any extents.
-/
import Idealize.ShloMosaic.Lib.Pipeline.Value
import Idealize.ShloMosaic.Lib.ValueIdx
import Idealize.ShloMosaic.Lib.KernelVsHost

namespace Cert.LibColumns

open Idealize.ShloMosaic Idealize.ShloMosaic.ValueIdx

variable {α : Type}

/-- Columns `o … o + m − 1` cut from an `[a, n]` matrix: entry `(p, j)` of the cut is entry `(p, o + j)` of the matrix. -/
theorem slice_cols_apply {a n m : ℕ} (o : ℕ) (X : (⟨2, ![a, n]⟩ : Shape).Idx → α)
    (h : (⟨2, ![a, n]⟩ : Shape).Slices ![0, o] ⟨2, ![a, m]⟩) (p : Fin a) (j : Fin m) (hj : o + j.val < n) :
    extractStridedSlice ⟨2, ![a, m]⟩ ![0, o] X h (ix2 p j) = X (ix2 p ⟨o + j.val, hj⟩) :=
  extractStridedSlice_apply _ _ _ _ _ (fun ax => by
    match ax with
    | ⟨0, _⟩ => show p.val = 0 + p.val; omega
    | ⟨1, _⟩ => rfl)

/-- A single entry `[1, 1]` repeated down a column `[a, 1]`: every entry of the column is that entry. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => show (0 : ℕ) = if (1 : ℕ) = 1 then 0 else p.val; rw [if_pos rfl]
  | ⟨1, _⟩ => show (0 : ℕ) = if (1 : ℕ) = 1 then 0 else u.val; rw [if_pos rfl]

/-- Two matrices with the same rows set side by side, `[r, n1]` then `[r, n2]`: a column `j < n1` of the result is
    column `j` of the left piece. -/
theorem concat_cols_left {r n1 n2 n : ℕ} (A : (⟨2, ![r, n1]⟩ : Shape).Idx → α) (B : (⟨2, ![r, n2]⟩ : Shape).Idx → α)
    (h : Shape.Concatenates [(⟨2, ![r, n1]⟩ : Shape), ⟨2, ![r, n2]⟩] ⟨2, ![r, n]⟩ 1) (k : Fin r) (j : Fin n1) (hj : j.val < n) :
    concatenate ⟨2, ![r, n]⟩ 1 [⟨⟨2, ![r, n1]⟩, A⟩, ⟨⟨2, ![r, n2]⟩, B⟩] h (ix2 k ⟨j.val, hj⟩) = A (ix2 k j) :=
  concatenate_pair_apply_left 1 A B h _ rfl (ix2 k j) (fun b => by
    match b with
    | ⟨0, _⟩ => rfl
    | ⟨1, _⟩ => rfl)

/-- The same, in the right piece: column `n1 + j` of the result is column `j` of the right piece. -/
theorem concat_cols_right {r n1 n2 n : ℕ} (A : (⟨2, ![r, n1]⟩ : Shape).Idx → α) (B : (⟨2, ![r, n2]⟩ : Shape).Idx → α)
    (h : Shape.Concatenates [(⟨2, ![r, n1]⟩ : Shape), ⟨2, ![r, n2]⟩] ⟨2, ![r, n]⟩ 1) (k : Fin r) (j : Fin n2)
    (hj : n1 + j.val < n) :
    concatenate ⟨2, ![r, n]⟩ 1 [⟨⟨2, ![r, n1]⟩, A⟩, ⟨⟨2, ![r, n2]⟩, B⟩] h (ix2 k ⟨n1 + j.val, hj⟩) = B (ix2 k j) :=
  concatenate_pair_apply_right 1 A B h _ rfl rfl (ix2 k j)
    (fun b hb => by
      match b with
      | ⟨0, _⟩ => rfl
      | ⟨1, _⟩ => exact absurd rfl hb)
    (by show j.val + n1 = n1 + j.val; omega)

/-- A matrix `[r, n]` widened to `[r, N]` by padding columns on the right only: inside the first `n` columns the
    result is the matrix, whatever the padding value. -/
theorem pad_cols_apply {r n N : ℕ} (hi : ℕ) (X : (⟨2, ![r, n]⟩ : Shape).Idx → α) {u : Shape} (v : u.Idx → α)
    (hp : (⟨2, ![r, n]⟩ : Shape).Pads ![0, 0] ![0, hi] ![0, 0] ⟨2, ![r, N]⟩) (hu : 0 < u.numel)
    (k : Fin r) (j : Fin n) (hj : j.val < N) :
    pad ⟨2, ![r, N]⟩ ![0, 0] ![0, hi] ![0, 0] X v hp hu (ix2 k ⟨j.val, hj⟩) = X (ix2 k j) :=
  pad_apply_of_inside _ _ _ X v hp hu _ (ix2 k j) (fun ax => by
    match ax with
    | ⟨0, _⟩ => show k.val = 0 + k.val * (0 + 1); omega
    | ⟨1, _⟩ => show j.val = 0 + j.val * (0 + 1); omega)

end Cert.LibColumns
-- ==== Proof.Payload.lean ====
/-
  What the kernel body stores, read one row at a time.

  At a grid point the body holds a block of 2048 rows of `x`, the packed matrix `[V | w | 0]` (512 × 128), the squared
  factors `W` (512 × 64) and the bias. One 128-wide product `x · [V | w | 0]` yields, in its columns 0…63, the factor
  projections `Σ_k x_k V_kj` and, in column 64, the linear term `Σ_k x_k w_k`; the padding columns are never read.
  A second product gives `Σ_k x_k² W_kj`. Row `p` of the stored column is therefore the factorization-machine score
  `FM.rowVal` of row `p` of the block.
-/
import proofs.«142795_j13065290514484_2_alg».proof.Proof.Gen.KernelIdeal.Skeleton
import proofs.«142795_j13065290514484_2_alg».proof.Proof.Spec
import proofs.«142795_j13065290514484_2_alg».proof.Proof.LibLayout
import proofs.«142795_j13065290514484_2_alg».proof.Proof.LibColumns

noncomputable section

namespace Cert.KernelIdeal.Body

open Cert.KernelIdeal Cert.KernelIdeal.Gen Idealize.ShloMosaic Idealize.ShloMosaic.ValueIdx
open Cert.LibLayout Cert.LibColumns

/-- The 2048×512 by 512×128 product's dimension record, and the 512×64 one. -/
abbrev D128 := dot_S2048x512_S512x128_S2048x128_1_0_0_1_n_n
abbrev D64 := dot_S2048x512_S512x64_S2048x64_1_0_0_1_n_n

theorem D128_l0 (j : S2048x128.Idx) (k : D128.contr.Idx) : (D128.lhsIdx j k 0).val = (j 0).val := by
  unfold DotDims.lhsIdx
  rw [dif_neg (show ¬(0 : Fin S2048x512.rank) ∈ D128.lhsBatch by decide),
    dif_pos (show (0 : Fin S2048x512.rank) ∈ D128.lhsNonContracting by decide)]
  rfl
theorem D128_r1 (j : S2048x128.Idx) (k : D128.contr.Idx) : (D128.rhsIdx j k 1).val = (j 1).val := by
  unfold DotDims.rhsIdx
  rw [dif_neg (show ¬(1 : Fin S512x128.rank) ∈ D128.rhsBatch by decide),
    dif_pos (show (1 : Fin S512x128.rank) ∈ D128.rhsNonContracting by decide)]
  rfl
theorem D64_l0 (j : S2048x64.Idx) (k : D64.contr.Idx) : (D64.lhsIdx j k 0).val = (j 0).val := by
  unfold DotDims.lhsIdx
  rw [dif_neg (show ¬(0 : Fin S2048x512.rank) ∈ D64.lhsBatch by decide),
    dif_pos (show (0 : Fin S2048x512.rank) ∈ D64.lhsNonContracting by decide)]
  rfl
theorem D64_r1 (j : S2048x64.Idx) (k : D64.contr.Idx) : (D64.rhsIdx j k 1).val = (j 1).val := by
  unfold DotDims.rhsIdx
  rw [dif_neg (show ¬(1 : Fin S512x64.rank) ∈ D64.rhsBatch by decide),
    dif_pos (show (1 : Fin S512x64.rank) ∈ D64.rhsNonContracting by decide)]
  rfl

/-- The wide product into a zero accumulator: entry `(p, j)` is `Σ_k a[p, k] · b[k, j]`. -/
theorem matmul128_apply (a : FVec Ideal S2048x512 .bf16) (b : FVec Ideal S512x128 .bf16) (p : Fin 2048) (j : Fin 128) :
    matmul D128 none a b (constant S2048x128 .f32 0x00000000#32) (ix2 p j) = ∑ k : Fin 512, a (ix2 p k) * b (ix2 k j) :=
  matmul_rows_cols_apply D128 rfl rfl rfl rfl D128_l0 D128_r1 none a b p j

/-- The narrow product into a zero accumulator, likewise. -/
theorem matmul64_apply (a : FVec Ideal S2048x512 .bf16) (b : FVec Ideal S512x64 .bf16) (p : Fin 2048) (j : Fin 64) :
    matmul D64 none a b (constant S2048x64 .f32 0x00000000#32) (ix2 p j) = ∑ k : Fin 512, a (ix2 p k) * b (ix2 k j) :=
  matmul_rows_cols_apply D64 rfl rfl rfl rfl D64_l0 D64_r1 none a b p j

/-- Row `p` of the stored column is the score of row `p` of the loaded block of `x`, with the linear weights read from
    column 64 of the packed matrix and the factors from its columns 0…63. -/
theorem pay_apply (v0 : FVec Ideal S2048x512 .f32) (v4 : FVec Ideal S512x128 .bf16) (v6 : FVec Ideal S512x64 .bf16)
    (v8 : FVec Ideal S1x1 .f32) (p : Fin 2048) (u : Fin 1) :
    k0_pay1 (F := Ideal) v0 v4 v6 v8 (ix2 p u)
      = Cert.FM.rowVal (fun k => v0 (ix2 p k)) (v8 (ix2 (0 : Fin 1) (0 : Fin 1)))
          (fun k => v4 (ix2 k (⟨64, by omega⟩ : Fin 128)))
          (fun k j => v4 (ix2 k (⟨j.val, by omega⟩ : Fin 128))) (fun k j => v6 (ix2 k j)) := by
  -- the two products, named
  let R1 : FVec Ideal S2048x128 .f32 := matmul D128 none (truncf .bf16 v0 bitsLt_bf16_f32)
    (shapeCast S512x128 v4 shapeCasts_S512x128_S512x128) (constant S2048x128 .f32 0x00000000#32)
  let R2 : FVec Ideal S2048x64 .f32 := matmul D64 none (truncf .bf16 (mulf v0 v0) bitsLt_bf16_f32)
    (shapeCast S512x64 v6 shapeCasts_S512x64_S512x64) (constant S2048x64 .f32 0x00000000#32)
  have hR1 : ∀ (q : Fin 2048) (j : Fin 128), R1 (ix2 q j) = ∑ k : Fin 512, v0 (ix2 q k) * v4 (ix2 k j) := fun q j =>
    (matmul128_apply _ _ q j).trans (Finset.sum_congr rfl fun k _ => by rw [shapeCast_self]; rfl)
  have hR2 : ∀ (q : Fin 2048) (j : Fin 64),
      R2 (ix2 q j) = ∑ k : Fin 512, (v0 (ix2 q k) * v0 (ix2 q k)) * v6 (ix2 k j) := fun q j =>
    (matmul64_apply _ _ q j).trans (Finset.sum_congr rfl fun k _ => by rw [shapeCast_self]; rfl)
  -- the factor projections: columns 0…63 of the wide product
  let XV : FVec Ideal S2048x64 .f32 := extractStridedSlice S2048x64 ![0, 0] R1 slices_S2048x128_o0_0_S2048x64
  have hXV : ∀ (q : Fin 2048) (j : Fin 64),
      XV (ix2 q j) = ∑ k : Fin 512, v0 (ix2 q k) * v4 (ix2 k (⟨j.val, by omega⟩ : Fin 128)) := fun q j =>
    (slice_cols_apply 0 R1 slices_S2048x128_o0_0_S2048x64 q j (by omega)).trans
      ((congrArg R1 (congrArg (ix2 q) (Fin.ext (Nat.zero_add _)))).trans (hR1 q ⟨j.val, by omega⟩))
  -- the summand of the interaction term
  let Dm : FVec Ideal S2048x64 .f32 := subf (mulf XV XV) R2
  have hD : ∀ (q : Fin 2048) (j : Fin 64), Dm (ix2 q j)
      = (∑ k : Fin 512, v0 (ix2 q k) * v4 (ix2 k (⟨j.val, by omega⟩ : Fin 128)))
          * (∑ k : Fin 512, v0 (ix2 q k) * v4 (ix2 k (⟨j.val, by omega⟩ : Fin 128)))
        - ∑ k : Fin 512, (v0 (ix2 q k) * v0 (ix2 q k)) * v6 (ix2 k j) := fun q j => by
    show XV (ix2 q j) * XV (ix2 q j) - R2 (ix2 q j) = _
    rw [hXV, hR2]
  show Ideal.logistic ((extractStridedSlice S2048x1 ![0, 64] R1 slices_S2048x128_o0_64_S2048x1 (ix2 p u)
        + broadcastTo S2048x1 v8 broadcasts_S1x1_S2048x1 (ix2 p u))
      + Ideal.ofBits .f32 0x3F000000#32
        * shapeCast S2048x1 (multiReduction .add [1] S2048 Dm 0x00000000#32 reduces_S2048x64_S2048 (.inl rfl) rfl)
            shapeCasts_S2048_S2048x1 (ix2 p u)) = _
  unfold Cert.FM.rowVal
  refine congrArg Ideal.logistic ?_
  refine congrArg₂ (· + ·) (congrArg₂ (· + ·) ?_ ?_) (congrArg (Ideal.ofBits .f32 0x3F000000#32 * ·) ?_)
  · exact (slice_cols_apply 64 R1 slices_S2048x128_o0_64_S2048x1 p u (by omega)).trans
      ((congrArg R1 (congrArg (ix2 p) (Fin.ext (by show 64 + u.val = 64; omega)))).trans (hR1 p ⟨64, by omega⟩))
  · exact broadcastTo_11_a1_apply v8 broadcasts_S1x1_S2048x1 p u
  · exact (shapeCast_a_a1_apply _ shapeCasts_S2048_S2048x1 p u).trans
      ((sum_rows_apply Dm reduces_S2048x64_S2048 (.inl rfl) rfl p).trans (Finset.sum_congr rfl fun j _ => hD p j))

end Cert.KernelIdeal.Body

end
-- ==== Proof.Packed.lean ====
/-
  The two matrices the host prepares before the launch, read entry by entry.

  Before the kernel runs, the host squares the factor matrix `V` (512 × 64) entrywise, and sets `V` and the weight
  column `w` (512 × 1) side by side into a 512 × 65 matrix which it widens to 512 × 128 with padding columns. Changes of
  float format are the identity on the extended reals. So entry `(k, j)` of the packed matrix is `V[k, j]` for
  `j < 64` and `w[k]` for `j = 64`; the padding columns are not described here because nothing reads them.
-/
import proofs.«142795_j13065290514484_2_alg».proof.Proof.Gen.KernelIdeal.Frame
import proofs.«142795_j13065290514484_2_alg».proof.Proof.LibColumns
import Idealize.ShloMosaic.Lib.StableHlo.Run

noncomputable section

namespace Cert.KernelIdeal.Prefix

open Cert.KernelIdeal Cert.KernelIdeal.Gen Idealize.ShloMosaic Idealize.ShloMosaic.TcCoe Idealize.SL.Sem
open Idealize.ShloMosaic.StableHlo Idealize.ShloMosaic.ValueIdx Cert.LibColumns

variable (m : (ℓ : Loc nD τ sig) → Buf (Elt Ideal) ℓ)

/-- The four argument arrays on core `c`, as arrays of extended reals: the rows `x`, the bias, the weight column and
    the factor matrix. -/
abbrev argX (c : Dev nD) : S262144x512.Idx → EReal := m ((c : Thread nD τ).loc main_arg0)
abbrev argB (c : Dev nD) : S1x1.Idx → EReal := m ((c : Thread nD τ).loc main_arg1)
abbrev argW (c : Dev nD) : S512x1.Idx → EReal := m ((c : Thread nD τ).loc main_arg2)
abbrev argV (c : Dev nD) : S512x64.Idx → EReal := m ((c : Thread nD τ).loc main_arg3)

/-- The squared factors, as the launch finds them: the entrywise square of the factor matrix. -/
theorem V_sq (c : Dev nD) : (V m c main_v3 : S512x64.Idx → EReal)
    = fun i => argV m c i * argV m c i := by
  dsimp only [Gen.V]
  simp only [Gen.hostOps0, Gen.hostOps0_1, List.flatten_cons, List.flatten_nil, List.append_nil, List.cons_append,
    List.nil_append]
  after_results
  rfl

/-- The packed matrix, as the launch finds it: factors and weights side by side, widened by 63 padding columns. -/
theorem V_packed (c : Dev nD) : (V m c main_v5 : S512x128.Idx → EReal)
    = pad S512x128 ![0, 0] ![0, 63] ![0, 0]
        (concatenate S512x65 1
          [⟨S512x64, argV m c⟩, ⟨S512x1, argW m c⟩]
          concatenates_S512x64_S512x1_S512x65_d1)
        (sitofp (F := Ideal) .bf16 (constantI S_ 32 0#32)) pads_S512x65_S512x128_000_0630 h_S_ := by
  dsimp only [Gen.V]
  simp only [Gen.hostOps0, Gen.hostOps0_1, List.flatten_cons, List.flatten_nil, List.append_nil, List.cons_append,
    List.nil_append]
  after_results
  rfl

/-- Columns 0…63 of the packed matrix are the factor matrix. -/
theorem V_packed_factor (c : Dev nD) (k : Fin 512) (j : Fin 64) :
    (V m c main_v5 : S512x128.Idx → EReal) (ix2 k (⟨j.val, by omega⟩ : Fin 128))
      = argV m c (ix2 k j) := by
  rw [V_packed]
  exact (pad_cols_apply 63 _ _ pads_S512x65_S512x128_000_0630 h_S_ k (⟨j.val, by omega⟩ : Fin 65) (by omega)).trans
    (concat_cols_left _ _ concatenates_S512x64_S512x1_S512x65_d1 k j (by omega))

/-- Column 64 of the packed matrix is the weight column. -/
theorem V_packed_linear (c : Dev nD) (k : Fin 512) :
    (V m c main_v5 : S512x128.Idx → EReal) (ix2 k (⟨64, by omega⟩ : Fin 128))
      = argW m c (ix2 k (0 : Fin 1)) := by
  rw [V_packed]
  exact (pad_cols_apply 63 _ _ pads_S512x65_S512x128_000_0630 h_S_ k (⟨64, by omega⟩ : Fin 65) (by omega)).trans
    (concat_cols_right _ _ concatenates_S512x64_S512x1_S512x65_d1 k (0 : Fin 1) (by omega))

end Cert.KernelIdeal.Prefix

end
-- ==== Proof.Blocks.lean ====
/-
  From what each grid point writes back to the whole output column.

  The grid has 128 points; point `t` loads rows `2048·t … 2048·t + 2047` of `x` and writes the same rows of the output
  column, while the packed matrix, the squared factors and the bias are whole-array blocks that never move. So what
  point `t` writes is block `t` of the factorization-machine score `FM.G` of the four arguments, the 128 blocks tile the
  column (row `r` lies in block `r / 2048`), and the column ends holding `FM.G`.
-/
import proofs.«142795_j13065290514484_2_alg».proof.Proof.Gen.KernelIdeal.Value
import proofs.«142795_j13065290514484_2_alg».proof.Proof.Payload
import proofs.«142795_j13065290514484_2_alg».proof.Proof.Packed

noncomputable section

namespace Cert.KernelIdeal.Whole

open Cert.KernelIdeal Cert.KernelIdeal.Gen Idealize.ShloMosaic Idealize.ShloMosaic.TcCoe Idealize.SL.Sem
open Idealize.ShloMosaic.ValueIdx Cert.KernelIdeal.Prefix
open Idealize.ShloMosaic.Pipeline (Dat)

variable (m : (ℓ : Loc nD τ sig) → Buf (Elt Ideal) ℓ) (ρ : Dev nD → PrngReg)

theorem off_zero : (![0, 0] : Fin 2 → Nat) = fun _ => 0 := funext fun a => by fin_cases a <;> rfl

/-- The score of the four argument arrays on core `c`. -/
abbrev score (c : Dev nD) : S262144x1.Idx → EReal := Cert.FM.G (argX m c) (argB m c) (argW m c) (argV m c)

/-- The block indices over the grid, decided: the rows of `x` move with the output's rows, point `t` at row block `t`;
    the three resident operands stay at block zero. -/
theorem block_indices : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of the score. -/
theorem flushed_eq (c : Dev nD) (t : Fin cfg0.N) :
    (dats m 0 c).flushed 4 t = ((cfg0.win 4).blk t).view.read (Elt Ideal) (score m c) := by
  rw [Cert.KernelIdeal.Value.flushed4]
  unfold out0_4
  rw [View.canon_unit_zero off_zero]
  simp only [View.ld_unit_zero (S := S2048x512) off_zero, View.ld_unit_zero (S := S512x128) off_zero,
    View.ld_unit_zero (S := S512x64) off_zero, View.ld_unit_zero (S := S1x1) off_zero]
  obtain ⟨f0, f1, f2, f3, f4, f5, f6, f7, f8, f9⟩ := block_indices t
  funext j
  obtain ⟨p, u, rfl⟩ : ∃ (p : Fin 2048) (u : Fin 1), j = ix2 p u := ⟨j 0, j 1, eq_ix2 (n0 := 2048) (n1 := 1) j⟩
  show k0_pay1 (iblk m c 0 t) (iblk m c 1 t) (iblk m c 2 t) (iblk m c 3 t) (ix2 p u)
    = score m c (((cfg0.win 4).blk t).view.emb (ix2 p u))
  refine (Body.pay_apply (iblk m c 0 t) (iblk m c 1 t) (iblk m c 2 t) (iblk m c 3 t) p u).trans ?_
  show _ = Cert.FM.rowVal _ _ _ _ _
  refine Cert.FM.rowVal_congr (fun k => ?_) ?_ (fun k => ?_) (fun k j => ?_) (fun k j => ?_)
  · -- a row of the block of `x` is the row of `x` the output block's row sits on
    show V m c main_arg0 (((cfg0.win 0).blk t).view.emb (ix2 p k)) = _
    refine (congrFun (V_main_arg0 m c) _).trans (congrArg (argX m c) ?_)
    funext a; apply Fin.ext
    match a with
    | ⟨0, _⟩ =>
      show win0_0.index t (0 : Fin 2) * 2048 + 1 * p.val = win0_4.index t (0 : Fin 2) * 2048 + 1 * p.val
      omega
    | ⟨1, _⟩ => show win0_0.index t (1 : Fin 2) * 512 + 1 * k.val = k.val; omega
  · -- the bias
    show V m c main_arg1 (((cfg0.win 3).blk t).view.emb (ix2 (0 : Fin 1) (0 : Fin 1))) = _
    refine (congrFun (V_main_arg1 m c) _).trans (congrArg (argB m c) ?_)
    funext a; apply Fin.ext
    match a with
    | ⟨0, _⟩ => show win0_3.index t (0 : Fin 2) * 1 + 1 * 0 = 0; omega
    | ⟨1, _⟩ => show win0_3.index t (1 : Fin 2) * 1 + 1 * 0 = 0; omega
  · -- the linear weights: column 64 of the packed matrix
    show V m c main_v5 (((cfg0.win 1).blk t).view.emb (ix2 k (⟨64, by omega⟩ : Fin 128))) = _
    refine (congrArg (V m c main_v5) ?_).trans (V_packed_linear m c k)
    funext a; apply Fin.ext
    match a with
    | ⟨0, _⟩ => show win0_1.index t (0 : Fin 2) * 512 + 1 * k.val = k.val; omega
    | ⟨1, _⟩ => show win0_1.index t (1 : Fin 2) * 128 + 1 * 64 = 64; omega
  · -- the factors: columns 0…63 of the packed matrix
    show V m c main_v5 (((cfg0.win 1).blk t).view.emb (ix2 k (⟨j.val, by omega⟩ : Fin 128))) = _
    refine (congrArg (V m c main_v5) ?_).trans (V_packed_factor m c k j)
    funext a; apply Fin.ext
    match a with
    | ⟨0, _⟩ => show win0_1.index t (0 : Fin 2) * 512 + 1 * k.val = k.val; omega
    | ⟨1, _⟩ => show win0_1.index t (1 : Fin 2) * 128 + 1 * j.val = j.val; omega
  · -- the squared factors
    show V m c main_v3 (((cfg0.win 2).blk t).view.emb (ix2 k j)) = _
    refine (congrArg (V m c main_v3) ?_).trans (congrFun (V_sq m c) (ix2 k j))
    funext a; apply Fin.ext
    match a with
    | ⟨0, _⟩ => show win0_2.index t (0 : Fin 2) * 512 + 1 * k.val = k.val; omega
    | ⟨1, _⟩ => show win0_2.index t (1 : Fin 2) * 64 + 1 * j.val = j.val; omega

/-- An index of the output column lies in point `t`'s block iff each coordinate lies in the block's range on its axis. -/
theorem mem_blk (t : Fin cfg0.N) (i : S262144x1.Idx) :
    i ∈ ((cfg0.win 4).blk t).view.set ↔ ∀ a : Fin 2, win0_4.index t a * S2048x1.size a ≤ (i a).val
      ∧ (i a).val < win0_4.index t a * S2048x1.size a + S2048x1.size a := by
  show i ∈ ((View.whole main_v6).slice (win0_4.rect t)).set ↔ _
  rw [View.set_slice_whole, Rect.mem_set_unit]
  exact Iff.rfl

/-- The blocks tile the column: row `r` lies in the block of point `r / 2048`, which writes back. -/
theorem cover (i : S262144x1.Idx) :
    ∃ t : Fin cfg0.N, (cfg0.win 4).flush t = true ∧ i ∈ ((cfg0.win 4).blk t).view.set := by
  have hi0 : (i 0).val < 262144 := (i 0).isLt
  have hi1 : (i 1).val < 1 := (i 1).isLt
  have hq : (i 0).val / 2048 < grid0.N := by rw [N_0]; omega
  obtain ⟨-, -, -, -, -, -, -, -, f8, f9⟩ := block_indices ⟨(i 0).val / 2048, hq⟩
  refine ⟨⟨(i 0).val / 2048, hq⟩, flush0_4 _, ?_⟩
  rw [mem_blk]
  intro a
  match a with
  | ⟨0, _⟩ =>
    show win0_4.index ⟨(i 0).val / 2048, hq⟩ (0 : Fin 2) * 2048 ≤ (i 0).val
      ∧ (i 0).val < win0_4.index ⟨(i 0).val / 2048, hq⟩ (0 : Fin 2) * 2048 + 2048
    rw [f8]
    show (i 0).val / 2048 * 2048 ≤ (i 0).val ∧ (i 0).val < (i 0).val / 2048 * 2048 + 2048
    omega
  | ⟨1, _⟩ =>
    show win0_4.index ⟨(i 0).val / 2048, hq⟩ (1 : Fin 2) * 1 ≤ (i 1).val
      ∧ (i 1).val < win0_4.index ⟨(i 0).val / 2048, hq⟩ (1 : Fin 2) * 1 + 1
    rw [f9]
    omega

/-- After the run the output column holds the score of the four arguments. -/
theorem final (c : Dev nD) : (dats m 0 c).arrAt 4 cfg0.N = score m c :=
  (dats m 0 c).arrAt_eq_of_cover 4 (score m c) (fun t _ => flushed_eq m c t) cover

/-- The kernel's run, with the result named: every weakly fair execution ends with the output column at the score
    of the arguments and the arguments unchanged. -/
theorem run : θ_run defs (onTc (τ := τ) (main (F := Ideal))) ⟨m, fun _ => 0, ρ⟩ fun r => ∀ c : Dev nD,
      r.2.mem ((c : Thread nD τ).loc main_v6) = score m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Whole

end
-- ==== Proof.lean ====
/-
  The kernel and its reference compute the same factorization-machine score.

  For a row `x ∈ ℝ^512`, bias `b`, weights `w ∈ ℝ^512` and factors `V ∈ ℝ^{512×64}`, both programs return

      σ( ⟨x, w⟩ + b + ½ · Σ_j ( (Σ_k x_k V_kj)² − Σ_k x_k² V_kj² ) ),     σ(a) = 1 / (1 + e^(−a)),

  for each of the 262144 rows (`FM.G`, Proof/Spec.lean). The reference evaluates this with three matrix products and
  spells the sigmoid out; the kernel packs `V` and `w` into one 512 × 128 matrix on the host, so that one wide product
  per block of 2048 rows yields the factor projections in columns 0…63 and the linear term in column 64, squares the
  factors on the host, and applies the logistic function as one operation. On the extended reals a change of float
  format is the identity, a product into a zero accumulator is the plain sum, and `1 / (1 + exp (−a))` is the logistic
  function, so the two sides are the same expression term by term: no algebraic law is applied, and the hypothesis that
  the inputs are finite is never used.

  The modules: Spec (the score), RefIsSpec (the reference's result is the score), Packed (the two matrices the host
  prepares, entry by entry), Payload (a row of what the body stores is the score of that row of its blocks), Blocks
  (the 128 written blocks tile the output column, which therefore ends at the score). The three frames are the
  generated ones; the idealization rewrote nothing, so that conjunct is trivial.
-/
import proofs.«142795_j13065290514484_2_alg».proof.Defs
import proofs.«142795_j13065290514484_2_alg».proof.Proof.Gen.Kernel
import proofs.«142795_j13065290514484_2_alg».proof.Proof.Gen.Kernel.Skeleton
import proofs.«142795_j13065290514484_2_alg».proof.Proof.Gen.Kernel.Launch
import proofs.«142795_j13065290514484_2_alg».proof.Proof.Gen.Kernel.Points
import proofs.«142795_j13065290514484_2_alg».proof.Proof.Gen.Kernel.Frame
import proofs.«142795_j13065290514484_2_alg».proof.Proof.Gen.KernelIdeal
import proofs.«142795_j13065290514484_2_alg».proof.Proof.Gen.KernelIdeal.Skeleton
import proofs.«142795_j13065290514484_2_alg».proof.Proof.Gen.KernelIdeal.Launch
import proofs.«142795_j13065290514484_2_alg».proof.Proof.Gen.KernelIdeal.Points
import proofs.«142795_j13065290514484_2_alg».proof.Proof.Gen.KernelIdeal.Frame
import proofs.«142795_j13065290514484_2_alg».proof.Proof.Gen.ReferenceIdeal
import proofs.«142795_j13065290514484_2_alg».proof.Proof.Gen.Pre_finite_inputs
import proofs.«142795_j13065290514484_2_alg».proof.Proof.Gen.KernelIdeal.Value
import proofs.«142795_j13065290514484_2_alg».proof.Proof.Gen.ReferenceIdeal.Run
import proofs.«142795_j13065290514484_2_alg».proof.Proof.Gen.ReferenceIdeal.Read
import proofs.«142795_j13065290514484_2_alg».proof.Proof.RefIsSpec
import proofs.«142795_j13065290514484_2_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the score of the arguments they agree on: the kernel by its blocks (`Whole.run`), the
    reference by its stages read at an index (`RefValue.result_eq`). -/
theorem algebraic : Cert.algebraic_KernelIdeal_ReferenceIdeal := by
  intro m ρ m' ρ' _ hagree
  refine ⟨fun c => Cert.KernelIdeal.Whole.score m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v19_eq _ _ _ _).trans
    (Cert.ReferenceIdeal.RefValue.result_eq _ _ _ _)).trans ?_
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
